-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S16384 : Shape := ⟨1, ![16384]⟩
abbrev S2048 : Shape := ⟨1, ![2048]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) (main_arg1 : FVec F S16384x4096 .f32) (main_arg2 : IVec S16384 1) (main_arg3 : IVec S2048 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S16384x4096 : Shape := ⟨2, ![16384, 4096]⟩
abbrev S16384 : Shape := ⟨1, ![16384]⟩
abbrev S2048 : Shape := ⟨1, ![2048]⟩
abbrev S_ : Shape := ⟨0, ![]⟩
abbrev S2048x1 : Shape := ⟨2, ![2048, 1]⟩
abbrev S16384x2048 : Shape := ⟨2, ![16384, 2048]⟩
abbrev S16384x1 : Shape := ⟨2, ![16384, 1]⟩
abbrev S1x1 : Shape := ⟨2, ![1, 1]⟩
abbrev S512x2048 : Shape := ⟨2, ![512, 2048]⟩
abbrev S512x1 : Shape := ⟨2, ![512, 1]⟩
abbrev S512 : Shape := ⟨1, ![512]⟩
abbrev S1 : Shape := ⟨1, ![1]⟩

abbrev nBuf : Space → Nat
  | .hbm => 31
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384, .i1⟩
  | .hbm, ⟨3, _⟩ => ⟨S2048, .i32⟩
  | .hbm, ⟨4, _⟩ => ⟨S_, .i32⟩
  | .hbm, ⟨5, _⟩ => ⟨S2048, .i32⟩
  | .hbm, ⟨6, _⟩ => ⟨S2048, .i1⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S2048, .i32⟩
  | .hbm, ⟨11, _⟩ => ⟨S2048x1, .i32⟩
  | .hbm, ⟨12, _⟩ => ⟨S16384x2048, .f32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S_, .i32⟩
  | .hbm, ⟨17, _⟩ => ⟨S2048, .i32⟩
  | .hbm, ⟨18, _⟩ => ⟨S2048, .i32⟩
  | .hbm, ⟨19, _⟩ => ⟨S2048, .i32⟩
  | .hbm, ⟨20, _⟩ => ⟨S2048x1, .i32⟩
  | .hbm, ⟨21, _⟩ => ⟨S16384x2048, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1x1, .f32⟩
  | .hbm, ⟨29, _⟩ => ⟨S_, .f32⟩
  | .hbm, ⟨30, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x1, .f32⟩
  | .local _ .vmem, ⟨5, _⟩ => ⟨S512x1, .f32⟩
  | .local _ .vmem, ⟨6, _⟩ => ⟨S1x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S16384_S16384x1_0 : S16384.BroadcastsInDim S16384x1 (![0] : Fin 1 → Fin S16384x1.rank)
  reducesTo_S16384x1_S_d0_1 : S16384x1.ReducesTo [0, 1] S_
  h_S_ : 0 < S_.numel
  inb_S1x1_S1x1_0_0 : ∀ a, (![0, 0] : Fin 2 → Nat) a + S1x1.size a ≤ S1x1.size a
  h_S1x1 : 0 < S1x1.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2048 : S512x1.Broadcasts S512x2048
  reduces_S512x2048_S512 : S512x2048.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  gather_S16384x4096_S2048x1_S16384x2048_0_1_n_n_1_1_163841_wf : GatherDims.WF S16384x4096 S2048x1 S16384x2048 [0] [1] [] [1] [] 1 ![16384, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .f32 = 32 ∨ (Rect.block (s := S16384x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .f32 = 32 ∨ (Rect.block (s := S16384x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def gather_S16384x4096_S2048x1_S16384x2048_0_1_n_n_1_1_163841 : GatherDims S16384x4096 S2048x1 S16384x2048 where
  offsetDims := [0]
  collapsedSliceDims := [1]
  operandBatchingDims := []
  startIndicesBatchingDims := []
  startIndexMap := [1]
  indexVectorDim := 1
  sliceSizes := ![16384, 1]
  wf := gather_S16384x4096_S2048x1_S16384x2048_0_1_n_n_1_1_163841_wf

abbrev win0_0 : Pipeline.Window sig grid0 :=
  Pipeline.Window.ofSpec (Memref.whole main_v6) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S16384 : Shape := ⟨1, ![16384]⟩
abbrev S2048 : Shape := ⟨1, ![2048]⟩
abbrev S_ : Shape := ⟨0, ![]⟩
abbrev S2048x1 : Shape := ⟨2, ![2048, 1]⟩
abbrev S16384x2048 : Shape := ⟨2, ![16384, 2048]⟩
abbrev S16384x1 : Shape := ⟨2, ![16384, 1]⟩

abbrev nBuf : Space → Nat
  | .hbm => 51
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384, .i1⟩
  | .hbm, ⟨3, _⟩ => ⟨S2048, .i32⟩
  | .hbm, ⟨4, _⟩ => ⟨S_, .i32⟩
  | .hbm, ⟨5, _⟩ => ⟨S2048, .i32⟩
  | .hbm, ⟨6, _⟩ => ⟨S2048, .i1⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S2048, .i32⟩
  | .hbm, ⟨11, _⟩ => ⟨S2048x1, .i32⟩
  | .hbm, ⟨12, _⟩ => ⟨S16384x2048, .f32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S_, .i32⟩
  | .hbm, ⟨17, _⟩ => ⟨S2048, .i32⟩
  | .hbm, ⟨18, _⟩ => ⟨S2048, .i32⟩
  | .hbm, ⟨19, _⟩ => ⟨S2048, .i32⟩
  | .hbm, ⟨20, _⟩ => ⟨S2048x1, .i32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S_, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S16384x1, .f32⟩
  | .hbm, ⟨46, _⟩ => ⟨S16384x2048, .f32⟩
  | .hbm, ⟨47, _⟩ => ⟨S16384x2048, .f32⟩
  | .hbm, ⟨48, _⟩ => ⟨S_, .f32⟩
  | .hbm, ⟨49, _⟩ => ⟨S_, .f32⟩
  | .hbm, ⟨50, _⟩ => ⟨S_, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S_S16384x2048 : S_.BroadcastsInDim S16384x2048 (![] : Fin 0 → Fin S16384x2048.rank)
  reducesTo_S16384_S_d0 : S16384.ReducesTo [0] S_
  h_S_ : 0 < S_.numel
  bcast_S16384_S16384x1_0 : S16384.BroadcastsInDim S16384x1 (![0] : Fin 1 → Fin S16384x1.rank)
  bcast_S16384x1_S16384x2048_0_1 : S16384x1.BroadcastsInDim S16384x2048 (![0, 1] : Fin 2 → Fin S16384x2048.rank)
  reducesTo_S16384x2048_S_d0_1 : S16384x2048.ReducesTo [0, 1] S_
  gather_S16384x4096_S2048x1_S16384x2048_0_1_n_n_1_1_163841_wf : GatherDims.WF S16384x4096 S2048x1 S16384x2048 [0] [1] [] [1] [] 1 ![16384, 1]

variable [Facts₀]

def gather_S16384x4096_S2048x1_S16384x2048_0_1_n_n_1_1_163841 : GatherDims S16384x4096 S2048x1 S16384x2048 where
  offsetDims := [0]
  collapsedSliceDims := [1]
  operandBatchingDims := []
  startIndicesBatchingDims := []
  startIndexMap := [1]
  indexVectorDim := 1
  sliceSizes := ![16384, 1]
  wf := gather_S16384x4096_S2048x1_S16384x2048_0_1_n_n_1_1_163841_wf

class Facts : Prop extends Facts₀ where

variable [Facts]
-- ==== Proof.CaseValues.lean ====
/-
  What the output's 1 × 1 staging block holds after the body, in each of the body's two control cases.

  At the first grid point the body first stores a zero block, reads it back, and stores the body's value over
  it; the block ends holding the body's value computed from the zero block.  At every later point the body
  reads what the point before left and stores the body's value computed from that.  In both cases the last
  store covers the whole block, so the block holds exactly that store's value.
-/
import proofs.«103359_j7834020348690_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValues

open Cert.KernelIdeal Cert.KernelIdeal.Gen

variable {F : FTy → Type} [FloatOps F]

/-- The zero offsets of a whole-block access, as the constant function. -/
theorem zero_offsets : (![0, 0] : Fin 2 → Nat) = fun _ => 0 := funext fun a => by fin_cases a <;> rfl

/-- LATER POINTS: the block, holding `prev`, ends holding the body's value over `prev`. -/
theorem later_point (c : Dev nD) (i : grid0.Coords) (a1 : Memref sig .tc .vmem S512x2048 .f32) (h1 : a1.IsWhole)
    (a2 : Memref sig .tc .vmem S512x2048 .f32) (h2 : a2.IsWhole) (a3 : Memref sig .tc .vmem S512x1 .f32) (h3 : a3.IsWhole)
    (a4 : Memref sig .tc .vmem S1x1 .f32) (h4 : a4.IsWhole) (hc : ¬cond0_0 i)
    (x y : Vec F S512x2048 .f32) (w : Vec F S512x1 .f32) (prev : Vec F S1x1 .f32) :
    out0_B_3 c i a1 h1 a2 h2 a3 h3 a4 h4 hc x y w prev = k0_pay2 x y w prev := by
  unfold out0_B_3
  rw [View.read_writes_eq_canon _ _ _ (cover0_B_3 c i a1 h1 a2 h2 a3 h3 a4 h4 hc x y w prev)]
  unfold kernelRun0_B
  dsimp only
  rw [View.canon_unit_zero zero_offsets]
  simp only [View.readAt_eq_ld, h1.read_unread, h2.read_unread, h3.read_unread, h4.read_unread,
    View.ld_unit_zero (S := S512x2048) zero_offsets, View.ld_unit_zero (S := S512x1) zero_offsets,
    View.ld_unit_zero (S := S1x1) zero_offsets]

/-- THE FIRST POINT: the block ends holding the body's value over the zero block. -/
theorem first_point (c : Dev nD) (i : grid0.Coords) (a1 : Memref sig .tc .vmem S512x2048 .f32) (h1 : a1.IsWhole)
    (a2 : Memref sig .tc .vmem S512x2048 .f32) (h2 : a2.IsWhole) (a3 : Memref sig .tc .vmem S512x1 .f32) (h3 : a3.IsWhole)
    (a4 : Memref sig .tc .vmem S1x1 .f32) (h4 : a4.IsWhole) (hc : cond0_0 i)
    (x y : Vec F S512x2048 .f32) (w : Vec F S512x1 .f32) :
    out0_A_3 c i a1 h1 a2 h2 a3 h3 a4 h4 hc x y w = k0_pay2 x y w k0_pay1 := by
  unfold out0_A_3
  rw [View.read_writes_eq_canon _ _ _ (cover0_A_3 c i a1 h1 a2 h2 a3 h3 a4 h4 hc x y w)]
  unfold kernelRun0_A
  dsimp only
  sl_unfold_words
  rw [View.canon_cons_unit_zero (S := S1x1) zero_offsets, View.readCov_unit_zero (S := S1x1) _ zero_offsets]
  simp only [View.readAt_eq_ld, h1.read_unread, h2.read_unread, h3.read_unread,
    View.ld_unit_zero (S := S512x2048) zero_offsets, View.ld_unit_zero (S := S512x1) zero_offsets,
    View.ld_unit_zero (S := S1x1) zero_offsets]

end Cert.KernelIdeal.CaseValues

end
-- ==== Proof.MaskedLoss.lean ====
/-
  The masked binary cross-entropy both programs compute, as one function of three arrays over the
  extended reals: the gathered probabilities `X` and labels `Y` (16384 rows of 2048 entries) and the
  row weights `M` (16384 entries, each the 0/1 value of a mask bit).

  One entry contributes `-(y · max(log x, -100) + (1 - y) · max(log(1 + (-x)), -100)) · w`; the loss is
  the sum of all 16384 · 2048 contributions divided by `(Σ_b M b) · 2048`.

  Two spellings of the entry meet here.  One program writes a negation as `0 - v` and a lower clamp as
  `max v c`; the other writes `-v` and `max c v`.  On the extended reals `0 - v = -v` and `max` is
  commutative, so the two are one function (`entry_eq`); nothing about finiteness is used.

  The sum over the 16384 rows is regrouped into 32 consecutive tiles of 512 rows (`sum_rows`): addition of
  extended reals is commutative and associative, so any grouping gives the same total.
-/
import Idealize.ShloMosaic.PureOps.Ideal.Laws
import Idealize.ShloMosaic.Lib.ValueIdx

noncomputable section

open Idealize.ShloMosaic Idealize.ShloMosaic.ValueIdx
open scoped BigOperators

namespace Cert.MaskedLoss

/-- The lower clamp `-100`, the constant `1`, the zero a negation is subtracted from, and the count `2048`,
    each as the extended real its f32 word denotes. -/
abbrev lo : EReal := Ideal.ofBits .f32 0xC2C80000#32
abbrev one : EReal := Ideal.ofBits .f32 0x3F800000#32
abbrev zero : EReal := Ideal.ofBits .f32 0x00000000#32
abbrev width : EReal := Ideal.ofBits .f32 0x45000000#32

/-- One entry's contribution, with negations spelt `0 - v` and clamps `max v (-100)`. -/
def entry (x y w : EReal) : EReal :=
  (zero - (y * max (Ideal.log x) lo + (one - y) * max (Ideal.log1p (zero - x)) lo)) * w

/-- The same contribution with negations spelt `-v` and clamps `max (-100) v`. -/
theorem entry_eq (x y w : EReal) :
    (-(y * max lo (Ideal.log x) + (one - y) * max lo (Ideal.log1p (-x)))) * w = entry x y w := by
  unfold entry zero
  rw [Ideal.ofBits_zero_f32, zero_sub, zero_sub, max_comm lo, max_comm lo]

/-- The index shapes of the gathered arrays and of the row weights. -/
abbrev SXY : Shape := ⟨2, ![16384, 2048]⟩
abbrev SM : Shape := ⟨1, ![16384]⟩

/-- A sum over the indices of a one-axis array is the sum over its coordinate. -/
theorem sum_idx1 {n : Nat} (f : (⟨1, ![n]⟩ : Shape).Idx → EReal) : ∑ j, f j = ∑ b : Fin n, f (ix1 b) :=
  (Equiv.sum_comp (⟨fun b => ix1 b, fun j => j 0, fun _ => rfl, fun j => (eq_ix1 j).symm⟩ :
    Fin n ≃ (⟨1, ![n]⟩ : Shape).Idx) f).symm

/-- The contributions of one row `b`: its 2048 entries, all weighted by `M b`. -/
def rowSum (X Y : SXY.Idx → EReal) (M : SM.Idx → EReal) (b : Fin 16384) : EReal :=
  ∑ k : Fin 2048, entry (X (ix2 b k)) (Y (ix2 b k)) (M (ix1 b))

/-- All contributions. -/
def total (X Y : SXY.Idx → EReal) (M : SM.Idx → EReal) : EReal :=
  ∑ b : Fin 16384, rowSum X Y M b

/-- The normaliser: the number of selected rows times the row width. -/
def denom (M : SM.Idx → EReal) : EReal := (∑ b : Fin 16384, M (ix1 b)) * width

/-- The loss. -/
def loss (X Y : SXY.Idx → EReal) (M : SM.Idx → EReal) : EReal :=
  Ideal.div (total X Y M) (denom M)

/-- Row `r` of tile `t`: tiles are 512 consecutive rows. -/
abbrev tileRow (t : Fin 32) (r : Fin 512) : Fin 16384 := ⟨t.val * 512 + r.val, by omega⟩

/-- A sum over the 16384 rows is the sum over the 32 tiles of the sums over each tile's 512 rows. -/
theorem sum_rows (g : Fin 16384 → EReal) :
    ∑ b : Fin 16384, g b = ∑ t : Fin 32, ∑ r : Fin 512, g (tileRow t r) := by
  rw [← Equiv.sum_comp (finProdFinEquiv : Fin 32 × Fin 512 ≃ Fin 16384) g, Fintype.sum_prod_type]
  refine Finset.sum_congr rfl fun t _ => Finset.sum_congr rfl fun r _ => congrArg g (Fin.ext ?_)
  show r.val + 512 * t.val = t.val * 512 + r.val
  omega

/-- The contributions of one tile. -/
def tileSum (X Y : SXY.Idx → EReal) (M : SM.Idx → EReal) (t : Fin 32) : EReal :=
  ∑ r : Fin 512, rowSum X Y M (tileRow t r)

/-- All contributions, tile by tile. -/
theorem total_eq_tiles (X Y : SXY.Idx → EReal) (M : SM.Idx → EReal) :
    total X Y M = ∑ t : Fin 32, tileSum X Y M t :=
  sum_rows (rowSum X Y M)

end Cert.MaskedLoss

end
-- ==== Proof.TileBody.lean ====
/-
  What one grid point's body adds to the running total, over the extended reals.

  The body loads a tile of probabilities `x` and of labels `y` (512 rows of 2048 entries each), the tile's
  512 row weights `w` (a column), and the running total `acc` (a single number, stored as a 1 × 1 block).
  It forms every entry's contribution, sums each row over its 2048 lanes, sums the 512 row sums, and stores
  `acc` plus that.  Read at its only index the stored value is therefore

      acc + Σ_{r < 512} Σ_{k < 2048} entry (x r k) (y r k) (w r).

  The steps: a sum along one axis of a block is a finite sum over that axis's coordinate; a column of 512 numbers
  viewed as a 512 × 1 block keeps its entries; the column of weights broadcast along the lanes reads row `r`'s
  weight at every lane; everything else is pointwise.
-/
import proofs.«103359_j7834020348690_1_alg».proof.Proof.Gen.KernelIdeal.Skeleton
import proofs.«103359_j7834020348690_1_alg».proof.Proof.MaskedLoss
import Idealize.ShloMosaic.Lib.Pipeline.Value

noncomputable section

open Idealize.ShloMosaic Idealize.ShloMosaic.ValueIdx
open scoped BigOperators

namespace Cert.KernelIdeal.TileBody

open Cert.KernelIdeal Cert.KernelIdeal.Gen Cert.MaskedLoss

/-- A one-entry vector viewed as a 1 × 1 block keeps its entry. -/
theorem cast_single (v : FVec Ideal S1 .f32) :
    shapeCast S1x1 v shapeCasts_S1_S1x1 (ix2 0 0) = v (ix1 0) :=
  shapeCast_apply v _ (ix2 0 0) (ix1 0) (by rw [Shape.rowMajor_val_one, Shape.rowMajor_val_two]; rfl)

/-- A vector of 512 entries viewed as a 512 × 1 column keeps entry `r` in row `r`. -/
theorem cast_column (v : FVec Ideal S512 .f32) (r : Fin 512) :
    shapeCast S512x1 v shapeCasts_S512_S512x1 (ix2 r 0) = v (ix1 r) :=
  shapeCast_apply v _ (ix2 r 0) (ix1 r) (by
    rw [Shape.rowMajor_val_one, Shape.rowMajor_val_two]
    show r.val = r.val * 1 + 0
    omega)

/-- Summing a 512 × 1 column down its rows gives the sum of its 512 entries. -/
theorem sum_down (v : FVec Ideal S512x1 .f32) (hφ : FKind.Formats .f32)
    (hacc : (0x00000000#32 : BitVec FTy.f32.bits) = FKind.add.neutral .f32 hφ) :
    multiReduction .add [0] S1 v 0x00000000#32 reduces_S512x1_S1 hφ hacc (ix1 0) = ∑ r : Fin 512, v (ix2 r 0) :=
  (Ideal.multiReduction_add_single v _ reduces_S512x1_S1 hφ hacc (ix1 0)).trans
    (Finset.sum_congr rfl fun r _ => congrArg v (funext fun a => match a with
      | ⟨0, _⟩ => rfl
      | ⟨1, _⟩ => rfl))

/-- Summing a 512 × 2048 block along its lanes gives, in row `r`, the sum of that row's 2048 entries. -/
theorem sum_lanes (v : FVec Ideal S512x2048 .f32) (hφ : FKind.Formats .f32)
    (hacc : (0x00000000#32 : BitVec FTy.f32.bits) = FKind.add.neutral .f32 hφ) (r : Fin 512) :
    multiReduction .add [1] S512 v 0x00000000#32 reduces_S512x2048_S512 hφ hacc (ix1 r) = ∑ k : Fin 2048, v (ix2 r k) :=
  (Ideal.multiReduction_add_single v _ reduces_S512x2048_S512 hφ hacc (ix1 r)).trans
    (Finset.sum_congr rfl fun k _ => congrArg v (funext fun a => match a with
      | ⟨0, _⟩ => rfl
      | ⟨1, _⟩ => rfl))

/-- The column of row weights broadcast along the lanes reads row `r`'s weight at every lane `k`. -/
theorem weight_along_lanes (w : Vec Ideal S512x1 .f32) (r : Fin 512) (k : Fin 2048) :
    broadcastTo S512x2048 w broadcasts_S512x1_S512x2048 (ix2 r k) = w (ix2 r 0) :=
  broadcastTo_apply w _ (ix2 r k) (ix2 r 0) fun a => match a with
    | ⟨0, _⟩ => by show r.val = if (512 : Nat) = 1 then 0 else r.val; rw [if_neg (by decide)]
    | ⟨1, _⟩ => by show (0 : Nat) = if (1 : Nat) = 1 then 0 else k.val; rw [if_pos rfl]

/-- The zero block an accumulation starts from reads `0` at its only index. -/
theorem start_apply : k0_pay1 (F := Ideal) (ix2 0 0) = 0 := by
  show Ideal.ofBits .f32 0x00000000#32 = 0
  exact Ideal.ofBits_zero_f32

/-- THE BODY'S STORE at its only index: the carried total plus the tile's contributions, row by row. -/
theorem stored_apply (x y : Vec Ideal S512x2048 .f32) (w : Vec Ideal S512x1 .f32) (acc : Vec Ideal S1x1 .f32) :
    k0_pay2 (F := Ideal) x y w acc (ix2 0 0)
      = acc (ix2 0 0) + ∑ r : Fin 512, ∑ k : Fin 2048, entry (x (ix2 r k)) (y (ix2 r k)) (w (ix2 r 0)) := by
  unfold k0_pay2
  simp only [shapeCast_self]
  refine congrArg (fun z => acc (ix2 0 0) + z) ?_
  refine (cast_single _).trans ?_
  refine (sum_down _ _ _).trans (Finset.sum_congr rfl fun r _ => ?_)
  refine (cast_column _ r).trans ?_
  refine (sum_lanes _ _ _ r).trans (Finset.sum_congr rfl fun k _ => ?_)
  refine (congrArg (fun z => _ * z) (weight_along_lanes w r k)).trans ?_
  rfl

end Cert.KernelIdeal.TileBody

end
-- ==== Proof.Running.lean ====
/-
  The running total, grid point by grid point.

  Write `tileAt t` for the sum of all entries of the tile the three input windows hold at point `t`.  The
  output block is zeroed at point 0 and never written back before the last point, so after point `n` it holds

      tileAt 0 + tileAt 1 + … + tileAt n

  at its only index: at point 0 the body adds `tileAt 0` to the zero block, and at point `n + 1` it adds
  `tileAt (n + 1)` to what point `n` left.  The proof is that induction.
-/
import proofs.«103359_j7834020348690_1_alg».proof.Proof.CaseValues
import proofs.«103359_j7834020348690_1_alg».proof.Proof.TileBody

noncomputable section

open Idealize.ShloMosaic Idealize.ShloMosaic.TcCoe Idealize.SL.Sem Idealize.ShloMosaic.ValueIdx
open scoped BigOperators

namespace Cert.KernelIdeal.Running

open Cert.KernelIdeal Cert.KernelIdeal.Gen Cert.MaskedLoss

variable (m : (ℓ : Loc nD τ sig) → Buf (Elt Ideal) ℓ)

/-- All entries of one tile: probabilities `x`, labels `y`, the column of row weights `w`. -/
def tileTotal (x y : Vec Ideal S512x2048 .f32) (w : Vec Ideal S512x1 .f32) : EReal :=
  ∑ r : Fin 512, ∑ k : Fin 2048, entry (x (ix2 r k)) (y (ix2 r k)) (w (ix2 r 0))

/-- The tile the windows hold at point `t` (zero past the grid, so that it is a function of a natural number). -/
def tileAt (c : Dev nD) (t : ℕ) : EReal :=
  if h : t < cfg0.N then tileTotal (iblk m c 0 ⟨t, h⟩) (iblk m c 1 ⟨t, h⟩) (iblk m c 2 ⟨t, h⟩) else 0

/-- After point `n` the output block holds the sum of the tiles of points `0 … n`. -/
theorem after_point (c : Dev nD) : ∀ (n : ℕ) (h : n < cfg0.N),
    outsAt0 m c n h (ix2 0 0) = ∑ t ∈ Finset.range (n + 1), tileAt m c t
  | 0, h => by
    rw [Finset.sum_range_one, tileAt, dif_pos h, outsAt0_A m c ⟨0, h⟩ rfl, CaseValues.first_point,
      TileBody.stored_apply, TileBody.start_apply, zero_add]
    rfl
  | n + 1, h => by
    have hN : cfg0.N = 32 := N_0
    have hB : ¬(⟨n + 1, h⟩ : Fin cfg0.N).val % 32 = 0 := by dsimp only; omega
    rw [Finset.sum_range_succ _ (n + 1), ← after_point c n (Nat.lt_of_succ_lt h), tileAt, dif_pos h,
      outsAt0_B m c ⟨n + 1, h⟩ hB, CaseValues.later_point, TileBody.stored_apply]
    rfl

end Cert.KernelIdeal.Running

end
-- ==== Proof.Tiles.lean ====
/-
  Which entries of the arrays a grid point's input blocks hold.

  Point `t` of the 32-point grid stages rows `512 t … 512 t + 511` of the two 16384 × 2048 arrays (all 2048
  lanes) and of the 16384 × 1 column of row weights: every window's block index is `(t, 0)`.  So entry
  `(r, k)` of a block is entry `(512 t + r, k)` of its array — a block coordinate is always
  index × block size + the coordinate inside the block.
-/
import proofs.«103359_j7834020348690_1_alg».proof.Proof.Gen.KernelIdeal.Frame
import proofs.«103359_j7834020348690_1_alg».proof.Proof.MaskedLoss
import Idealize.ShloMosaic.Lib.Pipeline.Value

noncomputable section

open Idealize.ShloMosaic Idealize.ShloMosaic.TcCoe Idealize.SL.Sem Idealize.ShloMosaic.ValueIdx

namespace Cert.KernelIdeal.Tiles

open Cert.KernelIdeal Cert.KernelIdeal.Gen Cert.MaskedLoss

variable {F : FTy → Type} [FloatOps F]
variable (m : (ℓ : Loc nD τ sig) → Buf (Elt F) ℓ)

/-- The three input windows' block indices at point `t`: `(t, 0)`. -/
theorem index_x : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index_y : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index_w : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- A grid point as a tile number. -/
abbrev tileOf (t : Fin cfg0.N) : Fin 32 := ⟨t.val, lt_of_lt_of_eq t.isLt (show cfg0.N = 32 from N_0)⟩

/-- Entry `(r, k)` of the probabilities' block at point `t` is entry `(512 t + r, k)` of the gathered probabilities. -/
theorem block_x (c : Dev nD) (t : Fin cfg0.N) (r : Fin 512) (k : Fin 2048) :
    (iblk m c 0 t : Vec F S512x2048 .f32) (ix2 r k) = V m c main_v6 (ix2 (tileRow (tileOf t) r) k) := by
  unfold iblk
  rw [View.read_apply]
  show V m c main_v6 _ = V m c main_v6 _
  refine congrArg (V m c main_v6) (funext fun a => Fin.ext ?_)
  match a with
  | ⟨0, _⟩ => show win0_0.index t 0 * 512 + 1 * r.val = t.val * 512 + r.val; rw [(index_x t).1]; omega
  | ⟨1, _⟩ => show win0_0.index t 1 * 2048 + 1 * k.val = k.val; rw [(index_x t).2]; omega

/-- The same for the labels' block. -/
theorem block_y (c : Dev nD) (t : Fin cfg0.N) (r : Fin 512) (k : Fin 2048) :
    (iblk m c 1 t : Vec F S512x2048 .f32) (ix2 r k) = V m c main_v13 (ix2 (tileRow (tileOf t) r) k) := by
  unfold iblk
  rw [View.read_apply]
  show V m c main_v13 _ = V m c main_v13 _
  refine congrArg (V m c main_v13) (funext fun a => Fin.ext ?_)
  match a with
  | ⟨0, _⟩ => show win0_1.index t 0 * 512 + 1 * r.val = t.val * 512 + r.val; rw [(index_y t).1]; omega
  | ⟨1, _⟩ => show win0_1.index t 1 * 2048 + 1 * k.val = k.val; rw [(index_y t).2]; omega

/-- Row `r` of the weights' block at point `t` is row `512 t + r` of the column of row weights. -/
theorem block_w (c : Dev nD) (t : Fin cfg0.N) (r : Fin 512) :
    (iblk m c 2 t : Vec F S512x1 .f32) (ix2 r 0) = V m c main_v15 (ix2 (tileRow (tileOf t) r) 0) := by
  unfold iblk
  rw [View.read_apply]
  show V m c main_v15 _ = V m c main_v15 _
  refine congrArg (V m c main_v15) (funext fun a => Fin.ext ?_)
  match a with
  | ⟨0, _⟩ => show win0_2.index t 0 * 512 + 1 * r.val = t.val * 512 + r.val; rw [(index_w t).1]; omega
  | ⟨1, _⟩ => show win0_2.index t 1 * 1 + 1 * (0 : Fin 1).val = (0 : Fin 1).val; rw [(index_w t).2]; rfl

end Cert.KernelIdeal.Tiles

end
-- ==== Proof.Inputs.lean ====
/-
  The arrays the grid reads, as functions of the program's arguments.

  Before the grid runs, the host gathers 2048 columns of the probabilities and of the labels (the column
  numbers are the class indices, a negative one first wrapped by adding 4096), turns the mask bits into the
  row weights 0 / 1 and lays them out as a 16384 × 1 column, and computes the normaliser: the sum of the
  column of weights times 2048.  These are the values the three input windows and the final quotient read.
-/
import proofs.«103359_j7834020348690_1_alg».proof.Proof.Gen.KernelIdeal.Frame
import Idealize.ShloMosaic.Lib.StableHlo.Run

noncomputable section

open Idealize.ShloMosaic Idealize.ShloMosaic.TcCoe Idealize.SL.Sem

namespace Cert.KernelIdeal.Inputs

open Cert.KernelIdeal Cert.KernelIdeal.Gen

variable {F : FTy → Type} [FloatOps F]
variable (m : (ℓ : Loc nD τ sig) → Buf (Elt F) ℓ)

/-- The column numbers the gathers read: the class indices, a negative one wrapped by adding 4096, as a 2048 × 1 table. -/
def columns (idx : (⟨S2048, .i32⟩ : BufTy).Contents (Elt F)) : (⟨S2048x1, .i32⟩ : BufTy).Contents (Elt F) :=
  broadcastInDim S2048x1 ![0] bcast_S2048_S2048x1_0
    (select (cmpi .slt idx (broadcastInDim S2048 ![] bcast_S_S2048 (constantI S_ 32 0#32)))
      (addi idx (broadcastInDim S2048 ![] bcast_S_S2048 (constantI S_ 32 4096#32))) idx)

/-- The 2048 selected columns of a 16384 × 4096 array. -/
def gathered (a : (⟨S16384x4096, .f32⟩ : BufTy).Contents (Elt F)) (idx : (⟨S2048, .i32⟩ : BufTy).Contents (Elt F)) :
    (⟨S16384x2048, .f32⟩ : BufTy).Contents (Elt F) :=
  Host.gather gather_S16384x4096_S2048x1_S16384x2048_0_1_n_n_1_1_163841 a (columns idx)

/-- The row weights: each mask bit as the number 0 or 1. -/
def weights (mask : (⟨S16384, .i1⟩ : BufTy).Contents (Elt F)) : (⟨S16384, .f32⟩ : BufTy).Contents (Elt F) :=
  uitofp .f32 mask

/-- The row weights as a 16384 × 1 column. -/
def weightColumn (mask : (⟨S16384, .i1⟩ : BufTy).Contents (Elt F)) : (⟨S16384x1, .f32⟩ : BufTy).Contents (Elt F) :=
  broadcastInDim S16384x1 ![0] bcast_S16384_S16384x1_0 (weights mask)

/-- The normaliser: the sum of the column of weights, times 2048. -/
def normaliser (mask : (⟨S16384, .i1⟩ : BufTy).Contents (Elt F)) : (⟨S_, .f32⟩ : BufTy).Contents (Elt F) :=
  mulf (Host.reduceAdd (weightColumn mask) (constant S_ .f32 0x00000000#32) reducesTo_S16384x1_S_d0_1 h_S_)
    (constant S_ .f32 0x45000000#32)

/-- The probabilities' window reads the gathered columns of the first argument. -/
theorem found_x (c : Dev nD) :
    V m c main_v6 = gathered (m ((c : Thread nD τ).loc main_arg0)) (m ((c : Thread nD τ).loc main_arg3)) := by
  show StableHlo.after hostOps0 (fun b => m (c, b)) (Proc.devRef .tc main_v6) = _
  after_results
  rfl

/-- The labels' window reads the gathered columns of the second argument. -/
theorem found_y (c : Dev nD) :
    V m c main_v13 = gathered (m ((c : Thread nD τ).loc main_arg1)) (m ((c : Thread nD τ).loc main_arg3)) := by
  show StableHlo.after hostOps0 (fun b => m (c, b)) (Proc.devRef .tc main_v13) = _
  after_results
  rfl

/-- The weights' window reads the column of row weights of the third argument. -/
theorem found_w (c : Dev nD) :
    V m c main_v15 = weightColumn (m ((c : Thread nD τ).loc main_arg2)) := by
  show StableHlo.after hostOps0 (fun b => m (c, b)) (Proc.devRef .tc main_v15) = _
  after_results
  rfl

/-- The normaliser the final quotient divides by. -/
theorem found_norm (c : Dev nD) :
    V m c main_v17 = normaliser (m ((c : Thread nD τ).loc main_arg2)) := by
  show StableHlo.after hostOps0 (fun b => m (c, b)) (Proc.devRef .tc main_v17) = _
  after_results
  rfl

end Cert.KernelIdeal.Inputs

end
-- ==== Proof.KernelLoss.lean ====
/-
  The kernel's result: the loss of the gathered arrays.

  * A tile's sum read through the windows is the tile's sum of the gathered probabilities, gathered labels and
    row weights: block entry `(r, k)` at point `t` is array entry `(512 t + r, k)`, and row `b` of the
    16384 × 1 weight column is the weight of row `b`.
  * After the last point the output block holds the sum of all 32 tiles, which is the sum of all contributions.
  * That block is written back once, after the last point; it is the whole 1 × 1 result array.
  * After the grid the host views the 1 × 1 array as a scalar and divides it by the normaliser, the sum of the
    column of row weights times 2048.
-/
import proofs.«103359_j7834020348690_1_alg».proof.Proof.Running
import proofs.«103359_j7834020348690_1_alg».proof.Proof.Tiles
import proofs.«103359_j7834020348690_1_alg».proof.Proof.Inputs

noncomputable section

open Idealize.ShloMosaic Idealize.ShloMosaic.TcCoe Idealize.SL.Sem Idealize.ShloMosaic.ValueIdx
open Idealize.ShloMosaic.Pipeline (Dat)
open scoped BigOperators

namespace Cert.KernelIdeal.KernelLoss

open Cert.KernelIdeal Cert.KernelIdeal.Gen Cert.MaskedLoss

variable (m : (ℓ : Loc nD τ sig) → Buf (Elt Ideal) ℓ) (ρ : Dev nD → PrngReg)

/-- The gathered probabilities, the gathered labels and the row weights of core `c`'s arguments. -/
abbrev X (c : Dev nD) : SXY.Idx → EReal :=
  Inputs.gathered (m ((c : Thread nD τ).loc main_arg0)) (m ((c : Thread nD τ).loc main_arg3))
abbrev Y (c : Dev nD) : SXY.Idx → EReal :=
  Inputs.gathered (m ((c : Thread nD τ).loc main_arg1)) (m ((c : Thread nD τ).loc main_arg3))
abbrev M (c : Dev nD) : SM.Idx → EReal :=
  Inputs.weights (m ((c : Thread nD τ).loc main_arg2))

/-- Row `b` of the 16384 × 1 column of weights is the weight of row `b`. -/
theorem weight_row (mask : (⟨S16384, .i1⟩ : BufTy).Contents (Elt Ideal)) (b : Fin 16384) :
    Inputs.weightColumn mask (ix2 b 0) = Inputs.weights mask (ix1 b) :=
  broadcastInDim_apply _ bcast_S16384_S16384x1_0 (Inputs.weights mask) (ix2 b 0) (ix1 b) fun a => match a with
    | ⟨0, _⟩ => by show b.val = if (16384 : Nat) = 1 then 0 else b.val; rw [if_neg (by decide)]

/-- The tile the windows hold at point `t` is tile `t` of the gathered arrays. -/
theorem tileAt_eq (c : Dev nD) (t : Fin 32) :
    Running.tileAt m c t.val = tileSum (X m c) (Y m c) (M m c) t := by
  have h : t.val < cfg0.N := lt_of_lt_of_eq t.isLt (show cfg0.N = 32 from N_0).symm
  unfold Running.tileAt
  rw [dif_pos h]
  unfold Running.tileTotal tileSum rowSum
  refine Finset.sum_congr rfl fun r _ => Finset.sum_congr rfl fun k _ => ?_
  rw [Tiles.block_x m c ⟨t.val, h⟩ r k, Tiles.block_y m c ⟨t.val, h⟩ r k, Tiles.block_w m c ⟨t.val, h⟩ r,
    Inputs.found_x, Inputs.found_y, Inputs.found_w, weight_row]

/-- The 1 × 1 result array: all contributions. -/
def sumBlock (c : Dev nD) : Buf (Elt Ideal) ((c : Thread nD τ).loc main_v18) :=
  fun _ => total (X m c) (Y m c) (M m c)

/-- A 1 × 1 block has one index. -/
theorem only_index (j : S1x1.Idx) : j = ix2 (0 : Fin 1) (0 : Fin 1) := by
  have h0 := idx2_lt0 j
  have h1 := idx2_lt1 j
  funext a
  match a with
  | ⟨0, _⟩ => exact Fin.ext (by show (j 0).val = 0; omega)
  | ⟨1, _⟩ => exact Fin.ext (by show (j 1).val = 0; omega)

/-- After the last point the output block holds all contributions. -/
theorem last_point (c : Dev nD) (n : ℕ) (h : n < cfg0.N) (hn : n = 31) : outsAt0 m c n h = sumBlock m c := by
  subst hn
  funext j
  rw [only_index j, Running.after_point, Finset.sum_range]
  unfold sumBlock
  rw [total_eq_tiles]
  exact Finset.sum_congr rfl fun t _ => tileAt_eq m c t

/-- The output window's block index is `(0, 0)` at every point. -/
theorem index_out : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- The last grid point. -/
abbrev lastPoint : Fin cfg0.N := ⟨31, by rw [show cfg0.N = 32 from N_0]; decide⟩

/-- The one write-back, after the last point, writes all contributions: block `(0, 0)` of the 1 × 1 array is the array. -/
theorem flushed_eq (c : Dev nD) (t : Fin cfg0.N) (hf : (cfg0.win 3).flush t = true) :
    (dats m 0 c).flushed 3 t = ((cfg0.win 3).blk t).view.read (Elt Ideal) (sumBlock m c) := by
  have hN : cfg0.N = 32 := N_0
  have h31 : t.val = 31 := by have := (flush0_3 t).mp hf; have := t.isLt; omega
  show (cfg0.win 3).cut (grid0.coords t) ((dats m 0 c).after 3 t) = _
  rw [after0_3, last_point m c t.val t.isLt h31]
  have hz' : (fun a => win0_3.index t a * main_v18.ty.shape.size a) = fun _ => 0 := funext fun a => by
    match a with
    | ⟨0, _⟩ => show win0_3.index t 0 * 1 = 0; rw [(index_out t).1]
    | ⟨1, _⟩ => show win0_3.index t 1 * 1 = 0; rw [(index_out t).2]
  exact (Memref.read_access_unit_zero (Elt Ideal) main_v18 hz' (fun a => by rw [congrFun hz' a]; simp) (sumBlock m c)).symm

/-- So the 1 × 1 result array ends holding all contributions. -/
theorem final_sum (c : Dev nD) : (dats m 0 c).arrAt 3 cfg0.N = sumBlock m c :=
  (dats m 0 c).arrAt_eq_of_cover 3 (sumBlock m c) (flushed_eq m c) fun i =>
    ⟨lastPoint, (flush0_3 _).mpr rfl, by
      show i ∈ ((View.whole main_v18).slice (win0_3.rect lastPoint)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index lastPoint 0 * win0_3.size 0 ≤ (i 0 : Nat)
          ∧ (i 0 : Nat) < win0_3.index lastPoint 0 * win0_3.size 0 + win0_3.xsize (grid0.coords lastPoint) 0
        rw [(index_out lastPoint).1, show win0_3.xsize (grid0.coords lastPoint) 0 = 1 from by decide +kernel]; omega
      | ⟨1, _⟩ =>
        show win0_3.index lastPoint 1 * win0_3.size 1 ≤ (i 1 : Nat)
          ∧ (i 1 : Nat) < win0_3.index lastPoint 1 * win0_3.size 1 + win0_3.xsize (grid0.coords lastPoint) 1
        rw [(index_out lastPoint).2, show win0_3.xsize (grid0.coords lastPoint) 1 = 1 from by decide +kernel]; omega⟩

/-- A 1 × 1 array viewed as a scalar, divided by a scalar. -/
def quotient (a : (⟨S1x1, .f32⟩ : BufTy).Contents (Elt Ideal)) (n : (⟨S_, .f32⟩ : BufTy).Contents (Elt Ideal)) :
    (⟨S_, .f32⟩ : BufTy).Contents (Elt Ideal) :=
  Host.divf (F := Ideal) (φ := .f32) (shapeCast S_ a shapeCasts_S1x1_S_) n

/-- After the grid the host views the 1 × 1 array as a scalar and divides it by the normaliser. -/
theorem tail_value (c : Dev nD) :
    Pipeline.afterTail₀ cfgs (dats m) 0 (V0 m) [hostOps1] c main_v20
      = quotient ((dats m 0 c).arrAt 3 cfg0.N) (V m c main_v17) := by
  unfold Pipeline.afterTail₀
  show StableHlo.after hostOps1 _ (Proc.devRef .tc main_v20) = _
  after_results
  have e18 : Pipeline.withArrays (cfgs 0).spec c (V0 m c) (fun w => (dats m 0 c).arrAt w (cfgs 0).N)
      (Proc.devRef .tc main_v18) = (dats m 0 c).arrAt 3 cfg0.N :=
    Pipeline.withArrays_arr spec0 launch0.win.arr_inj c _ _ 3
  have e17 : Pipeline.withArrays (cfgs 0).spec c (V0 m c) (fun w => (dats m 0 c).arrAt w (cfgs 0).N)
      (Proc.devRef .tc main_v17) = V m c main_v17 :=
    Pipeline.withArrays_of_ne _ c (V0 m c) _ main_v17 (by exact (by decide : ∀ w, Pipeline.arrRef spec0 w ≠ main_v17))
  rw [e18, e17]
  rfl

/-- A 1 × 1 array viewed as a scalar reads its only entry. -/
theorem scalar_view (a : (⟨S1x1, .f32⟩ : BufTy).Contents (Elt Ideal)) (i : S_.Idx) :
    shapeCast S_ a shapeCasts_S1x1_S_ i = a (ix2 0 0) :=
  shapeCast_apply a _ i (ix2 0 0) (by
    rw [Shape.rowMajor_val_two]
    show _ = (Shape.rowMajorPi (![] : Fin 0 → Nat) i).val
    rw [Shape.rowMajorPi_zero]
    rfl)

/-- The normaliser is the number of selected rows times the row width. -/
theorem normaliser_apply (mask : (⟨S16384, .i1⟩ : BufTy).Contents (Elt Ideal)) (i : S_.Idx) :
    Inputs.normaliser mask i = denom (Inputs.weights mask) := by
  unfold Inputs.normaliser denom
  refine congrArg (fun z => z * width) ?_
  simp only [Host.reduceAdd, Ideal.hostReduceAdd_def]
  refine (Ideal.hostReduceAdd_total reducesTo_S16384x1_S_d0_1 (fun b => b.elim0) _ _ i).trans ?_
  rw [sum_idx2]
  show Ideal.ofBits .f32 0x00000000#32 + _ = _
  rw [Ideal.ofBits_zero_f32, zero_add]
  refine Finset.sum_congr rfl fun b _ => ?_
  rw [Fin.sum_univ_one]
  exact weight_row mask b

/-- The quotient at the scalar's index: the array's only entry over the divisor. -/
theorem quotient_apply (a : (⟨S1x1, .f32⟩ : BufTy).Contents (Elt Ideal)) (n : (⟨S_, .f32⟩ : BufTy).Contents (Elt Ideal))
    (i : S_.Idx) : quotient a n i = Ideal.div (a (ix2 0 0)) (n i) := by
  show Ideal.div (shapeCast S_ a shapeCasts_S1x1_S_ i) (n i) = _
  rw [scalar_view]

/-- THE KERNEL'S RESULT: the loss of the gathered arrays. -/
theorem result_eq (c : Dev nD) :
    Pipeline.afterTail₀ cfgs (dats m) 0 (V0 m) [hostOps1] c main_v20 = fun _ => loss (X m c) (Y m c) (M m c) := by
  refine (tail_value m c).trans ?_
  funext i
  refine (quotient_apply _ _ i).trans (congrArg₂ Ideal.div ?_ ?_)
  · rw [final_sum m c]
    rfl
  · exact (congrFun (Inputs.found_norm m c) i).trans (normaliser_apply _ i)

/-- The run, read: the result at the loss of the gathered arrays, the arguments unchanged. -/
theorem run : θ_run defs (onTc (τ := τ) (main (F := Ideal))) ⟨m, fun _ => 0, ρ⟩ fun r => ∀ c : Dev nD,
      r.2.mem ((c.tc : Thread nD τ).loc main_v20) = (fun _ => loss (X m c) (Y m c) (M m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v20 (Pipeline.mem_restRefs_of main_v20 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelLoss

end
-- ==== Proof.RefSide.lean ====
/-
  The reference's result, read index by index at the extended reals: it is the loss of the same three
  arrays — the gathered probabilities, the gathered labels and the row weights.

  The reference forms every contribution over the whole 16384 × 2048 array at once, sums them all with one
  reduction started from zero, and divides by the sum of the 16384 row weights times 2048.  Its contribution is
  spelt with `-v` and `max (-100) v`; the weight of entry `(b, k)` is the weight of row `b`, reached through
  two broadcasts.
-/
import proofs.«103359_j7834020348690_1_alg».proof.Proof.Gen.ReferenceIdeal.Read
import proofs.«103359_j7834020348690_1_alg».proof.Proof.MaskedLoss

noncomputable section

open Idealize.ShloMosaic Idealize.ShloMosaic.ValueIdx
open scoped BigOperators

namespace Cert.ReferenceIdeal.RefLoss

open Cert.ReferenceIdeal Cert.ReferenceIdeal.Gen Cert.ReferenceIdeal.Read Cert.MaskedLoss

/-- The weight the two broadcasts put at entry `(b, k)` is row `b`'s. -/
theorem weight_index (b : Fin 16384) (k : Fin 2048) : idx_main_v28 (idx_main_v29 (ix2 b k)) = ix1 b :=
  funext fun a => match a with | ⟨0, _⟩ => rfl

/-- One entry of the array the reference sums. -/
theorem contribution (x0 x1 : (⟨S16384x4096, .f32⟩ : BufTy).Contents (Elt Ideal))
    (x2 : (⟨S16384, .i1⟩ : BufTy).Contents (Elt Ideal)) (x3 : (⟨S2048, .i32⟩ : BufTy).Contents (Elt Ideal))
    (b : Fin 16384) (k : Fin 2048) :
    val_main_v30 (F := Ideal) x0 x1 x2 x3 (ix2 b k)
      = entry (val_main_v6 (F := Ideal) x0 x3 (ix2 b k)) (val_main_v13 (F := Ideal) x1 x3 (ix2 b k))
          (val_main_v25 (F := Ideal) x2 (ix1 b)) := by
  rw [val_main_v30_apply, val_main_v29_apply, val_main_v28_apply, weight_index, val_main_v24_apply,
    val_main_v23_apply, val_main_v19_apply, val_main_v22_apply, val_main_v15_apply, val_main_v18_apply,
    val_main_v21_apply, val_main_v20_apply, val_main_call0_v1_apply, val_main_call1_v1_apply, val_main_v14_apply,
    val_main_v17_apply, val_main_v16_apply]
  exact entry_eq _ _ _

/-- THE REFERENCE'S RESULT: the loss of the gathered arrays. -/
theorem result_eq (x0 x1 : (⟨S16384x4096, .f32⟩ : BufTy).Contents (Elt Ideal))
    (x2 : (⟨S16384, .i1⟩ : BufTy).Contents (Elt Ideal)) (x3 : (⟨S2048, .i32⟩ : BufTy).Contents (Elt Ideal)) :
    val_main_v32 (F := Ideal) x0 x1 x2 x3
      = fun _ => loss (val_main_v6 (F := Ideal) x0 x3) (val_main_v13 (F := Ideal) x1 x3) (val_main_v25 (F := Ideal) x2) := by
  funext i
  rw [val_main_v32_apply]
  refine congrArg₂ Ideal.div ?_ ?_
  · rw [val_main_v31_apply, sum_idx2]
    show Ideal.ofBits .f32 0x00000000#32 + _ = _
    rw [Ideal.ofBits_zero_f32, zero_add]
    exact Finset.sum_congr rfl fun b _ => Finset.sum_congr rfl fun k _ => contribution x0 x1 x2 x3 b k
  · rw [val_main_v27_apply, val_main_v26_apply, sum_idx1]
    show (Ideal.ofBits .f32 0x00000000#32 + _) * _ = _
    rw [Ideal.ofBits_zero_f32, zero_add]
    rfl

end Cert.ReferenceIdeal.RefLoss

end
-- ==== Proof.lean ====
/-
  A masked binary cross-entropy, averaged: the tiled accumulation against the one-shot reduction.

  Both programs gather 2048 columns of the probabilities and of the labels, form for every gathered entry
  `-(y · max(log x, -100) + (1 - y) · max(log(1 - x), -100))` times its row's 0/1 weight, add everything up and
  divide by (number of selected rows) × 2048.  They differ only in how the sum is taken.  One walks 32 tiles of
  512 rows: a grid point sums its tile's rows along the lanes, sums the 512 row sums, and adds that to a running
  total that is zeroed at the first point and written back after the last.  The other sums the whole array in one
  reduction.  Over the extended reals addition is commutative and associative, so the 32 tile sums add up to the
  sum of all entries (`MaskedLoss.total_eq_tiles`); the negation spelt `0 - v` is `-v` and `max` is commutative
  (`MaskedLoss.entry_eq`).  No finiteness of the inputs is needed for any of this.

  The modules: `MaskedLoss` (the loss as one function of three arrays, and the two laws above), `TileBody` (what
  a grid point adds), `CaseValues` (the output block after the body, first point and later points), `Running`
  (the running total by induction on the point), `Tiles` (which array entries a point's blocks hold), `Inputs`
  (the arrays the grid reads, from the arguments), `KernelLoss` (the result array, the final quotient, the run),
  `RefSide` (the one-shot program's result is the same loss).
-/
import proofs.«103359_j7834020348690_1_alg».proof.Defs
import proofs.«103359_j7834020348690_1_alg».proof.Proof.Gen.Kernel
import proofs.«103359_j7834020348690_1_alg».proof.Proof.Gen.Kernel.Frame
import proofs.«103359_j7834020348690_1_alg».proof.Proof.Gen.KernelIdeal
import proofs.«103359_j7834020348690_1_alg».proof.Proof.Gen.KernelIdeal.Frame
import proofs.«103359_j7834020348690_1_alg».proof.Proof.Gen.ReferenceIdeal
import proofs.«103359_j7834020348690_1_alg».proof.Proof.Gen.ReferenceIdeal.Run
import proofs.«103359_j7834020348690_1_alg».proof.Proof.Gen.ReferenceIdeal.Read
import proofs.«103359_j7834020348690_1_alg».proof.Proof.Gen.Pre_finite_inputs
import proofs.«103359_j7834020348690_1_alg».proof.Proof.KernelLoss
import proofs.«103359_j7834020348690_1_alg».proof.Proof.RefSide
import Idealize.ShloMosaic.Adequacy
import Idealize.ShloMosaic.Init

noncomputable section

namespace Cert.Proof

open Idealize.ShloMosaic Idealize.ShloMosaic.TcCoe Idealize.SL.Sem

/-- The program as printed runs to the end and leaves its arguments alone. -/
theorem frame_kernel : Cert.frame_Kernel (hKernel := Cert.Kernel.Gen.facts) (hPre_finite_inputs := Cert.Pre_finite_inputs.Gen.facts) :=
  fun m ρ _ => Cert.Kernel.Gen.frame m ρ

/-- So does the same program read over the extended reals. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The one-shot program has no grid: its frame is its run with the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Reading the program over the extended reals rewrote none of its operations. -/
theorem preserves : Cert.preserves_Kernel_KernelIdeal := trivial

/-- From arguments that agree both programs end at the loss of the same gathered arrays: the tiled program by
    `KernelLoss.run`, the one-shot program by its run and `RefLoss.result_eq`. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.MaskedLoss.loss (Cert.KernelIdeal.KernelLoss.X m c) (Cert.KernelIdeal.KernelLoss.Y m c)
    (Cert.KernelIdeal.KernelLoss.M m c), Cert.KernelIdeal.KernelLoss.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefLoss.result_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
